-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x7x7 : Shape := ⟨4, ![2048, 256, 7, 7]⟩
abbrev S2048x49x49 : Shape := ⟨3, ![2048, 49, 49]⟩
abbrev S_ : Shape := ⟨0, ![]⟩

class Facts : Prop where
  bcast_S_S2048x256x7x7 : S_.BroadcastsInDim S2048x256x7x7 (![] : Fin 0 → Fin S2048x256x7x7.rank)
  reducesTo_S2048x256x7x7_S_d0_1_2_3 : S2048x256x7x7.ReducesTo [0, 1, 2, 3] S_
  h_S_ : 0 < S_.numel

variable [Facts]

def fn {F : FTy → Type} [FloatOps F] (main_arg0 : FVec F S2048x256x7x7 .f32) (main_arg1 : FVec F S2048x256x7x7 .f32) (main_arg2 : IVec S2048x49x49 32) : IVec S_ 1 :=
  let main_v0 : FVec F S2048x256x7x7 .f32 := Host.absf main_arg0
  let main_cst : FVec F S_ .f32 := constant S_ .f32 0x7F800000#32
  let main_v1 : FVec F S2048x256x7x7 .f32 := broadcastInDim S2048x256x7x7 ![] bcast_S_S2048x256x7x7 main_cst
  let main_v2 : IVec S2048x256x7x7 1 := cmpf .olt main_v0 main_v1
  let main_c : IVec S_ 1 := constantI S_ 1 1#1
  let main_v3 : IVec S_ 1 := (fun x v => Host.reduce IntOp.andi x v reducesTo_S2048x256x7x7_S_d0_1_2_3 h_S_) main_v2 main_c
  let main_v4 : FVec F S2048x256x7x7 .f32 := Host.absf main_arg1
  let main_cst_0 : FVec F S_ .f32 := constant S_ .f32 0x7F800000#32
  let main_v5 : FVec F S2048x256x7x7 .f32 := broadcastInDim S2048x256x7x7 ![] bcast_S_S2048x256x7x7 main_cst_0
  let main_v6 : IVec S2048x256x7x7 1 := cmpf .olt main_v4 main_v5
  let main_c_1 : IVec S_ 1 := constantI S_ 1 1#1
  let main_v7 : IVec S_ 1 := (fun x v => Host.reduce IntOp.andi x v reducesTo_S2048x256x7x7_S_d0_1_2_3 h_S_) main_v6 main_c_1
  let main_v8 : IVec S_ 1 := andi main_v3 main_v7
  main_v8
-- ==== Kernel.lean ====
abbrev S2048x256x7x7 : Shape := ⟨4, ![2048, 256, 7, 7]⟩
abbrev S2048x49x49 : Shape := ⟨3, ![2048, 49, 49]⟩
abbrev S2048x256x49 : Shape := ⟨3, ![2048, 256, 49]⟩
abbrev S2x8x128 : Shape := ⟨3, ![2, 8, 128]⟩
abbrev S32x256x49 : Shape := ⟨3, ![32, 256, 49]⟩
abbrev S32x49x49 : Shape := ⟨3, ![32, 49, 49]⟩
abbrev S1x8x128 : Shape := ⟨3, ![1, 8, 128]⟩
abbrev S1x1 : Shape := ⟨2, ![1, 1]⟩
abbrev S32x49 : Shape := ⟨2, ![32, 49]⟩
abbrev S32x49x1 : Shape := ⟨3, ![32, 49, 1]⟩
abbrev S32x1x49 : Shape := ⟨3, ![32, 1, 49]⟩
abbrev S32x1 : Shape := ⟨2, ![32, 1]⟩
abbrev S32x1x1 : Shape := ⟨3, ![32, 1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 17
  | .vmem => 12
  | .smem => 0
  | _ => 0

abbrev bufTy : (tb : Table) → Fin (tcTables nBuf tb) → BufTy
  | .hbm, ⟨0, _⟩ => ⟨S2048x256x7x7, .f32⟩
  | .hbm, ⟨1, _⟩ => ⟨S2048x256x7x7, .f32⟩
  | .hbm, ⟨2, _⟩ => ⟨S2048x49x49, .i32⟩
  | .hbm, ⟨3, _⟩ => ⟨S2048x256x49, .f32⟩
  | .hbm, ⟨4, _⟩ => ⟨S2048x256x49, .f32⟩
  | .hbm, ⟨5, _⟩ => ⟨S2x8x128, .f32⟩
  | .hbm, ⟨6, _⟩ => ⟨S2x8x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S32x256x49, .f32⟩
  | .local _ .vmem, ⟨1, _⟩ => ⟨S32x256x49, .f32⟩
  | .local _ .vmem, ⟨2, _⟩ => ⟨S32x256x49, .f32⟩
  | .local _ .vmem, ⟨3, _⟩ => ⟨S32x256x49, .f32⟩
  | .local _ .vmem, ⟨4, _⟩ => ⟨S32x49x49, .i32⟩
  | .local _ .vmem, ⟨5, _⟩ => ⟨S32x49x49, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | .local _ .vmem, ⟨11, _⟩ => ⟨S1x1, .f32⟩
  | _, _ => ⟨S2048x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v57 : BitVec 1 := Scalar.cmpi .eq arg1 c31_i32
  let v58 : BitVec 32 := Scalar.extui v57
  let c0_i32_29 : BitVec 32 := 0#32
  let v59 : BitVec 1 := Scalar.cmpi .ne v58 c0_i32_29
  v59

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x49x49 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048x256x7x7_S2048x256x49 : S2048x256x7x7.ShapeCasts S2048x256x49
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x256x49_S32x256x49_0_0_0 : ∀ a, (![0, 0, 0] : Fin 3 → Nat) a + S32x256x49.size a ≤ S32x256x49.size a
  h_S32x256x49 : 0 < S32x256x49.numel
  shapeCasts_S32x256x49_S32x256x49 : S32x256x49.ShapeCasts S32x256x49
  inb_S32x49x49_S32x49x49_0_0_0 : ∀ a, (![0, 0, 0] : Fin 3 → Nat) a + S32x49x49.size a ≤ S32x49x49.size a
  h_S32x49x49 : 0 < S32x49x49.numel
  bitsLt_bf16_f32 : FTy.bits .bf16 < FTy.bits .f32
  reduces_S32x256x49_S32x49 : S32x256x49.Reduces [1] S32x49
  shapeCasts_S32x49_S32x49x1 : S32x49.ShapeCasts S32x49x1
  shapeCasts_S32x49_S32x1x49 : S32x49.ShapeCasts S32x1x49
  broadcasts_S32x49x1_S32x49x49 : S32x49x1.Broadcasts S32x49x49
  broadcasts_S32x1x49_S32x49x49 : S32x1x49.Broadcasts S32x49x49
  reduces_S32x49x49_S32x49 : S32x49x49.Reduces [2] S32x49
  reduces_S32x49x1_S32x1 : S32x49x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  shapeCasts_S1x1x1_S1x1 : S1x1x1.ShapeCasts S1x1
  natLt_1_32 : 1 < 32
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S32x256x49_S32x256x49_S32x49x49_1_1_2_2_0_0_wf : DotDims.WF S32x256x49 S32x256x49 S32x49x49 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x49.size a ≤ S2048x256x49.size a
  hwx0_0 : ∀ i : grid0.Coords, EltTy.bits .f32 = 32 ∨ (Rect.block (s := S2048x256x49) S32x256x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x49.size a ≤ S2048x256x49.size a
  hwx0_1 : ∀ i : grid0.Coords, EltTy.bits .f32 = 32 ∨ (Rect.block (s := S2048x256x49) S32x256x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x49x49.size a ≤ S2048x49x49.size a
  hwx0_2 : ∀ i : grid0.Coords, EltTy.bits .i32 = 32 ∨ (Rect.block (s := S2048x49x49) S32x49x49.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def dot_S32x256x49_S32x256x49_S32x49x49_1_1_2_2_0_0 : DotDims S32x256x49 S32x256x49 S32x49x49 where
  lhsContracting := [1]
  rhsContracting := [1]
  lhsNonContracting := [2]
  rhsNonContracting := [2]
  lhsBatch := [0]
  rhsBatch := [0]
  wf := dot_S32x256x49_S32x256x49_S32x49x49_1_1_2_2_0_0_wf

abbrev win0_0 : Pipeline.Window sig grid0 :=
  Pipeline.Window.ofSpec (Memref.whole main_v0) S32x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x49x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x256x7x7 : Shape := ⟨4, ![2048, 256, 7, 7]⟩
abbrev S2048x49x49 : Shape := ⟨3, ![2048, 49, 49]⟩
abbrev S2048x256x49 : Shape := ⟨3, ![2048, 256, 49]⟩
abbrev S_ : Shape := ⟨0, ![]⟩
abbrev S2048x49 : Shape := ⟨2, ![2048, 49]⟩
abbrev S2048x49x1 : Shape := ⟨3, ![2048, 49, 1]⟩
abbrev S2048x1x49 : Shape := ⟨3, ![2048, 1, 49]⟩

abbrev nBuf : Space → Nat
  | .hbm => 42
  | .vmem => 0
  | .smem => 0
  | _ => 0

abbrev bufTy : (tb : Table) → Fin (tcTables nBuf tb) → BufTy
  | .hbm, ⟨0, _⟩ => ⟨S2048x256x7x7, .f32⟩
  | .hbm, ⟨1, _⟩ => ⟨S2048x256x7x7, .f32⟩
  | .hbm, ⟨2, _⟩ => ⟨S2048x49x49, .i32⟩
  | .hbm, ⟨3, _⟩ => ⟨S2048x256x49, .f32⟩
  | .hbm, ⟨4, _⟩ => ⟨S2048x256x49, .f32⟩
  | .hbm, ⟨5, _⟩ => ⟨S2048x49x49, .f32⟩
  | .hbm, ⟨6, _⟩ => ⟨S2048x256x49, .f32⟩
  | .hbm, ⟨7, _⟩ => ⟨S_, .f32⟩
  | .hbm, ⟨8, _⟩ => ⟨S2048x49, .f32⟩
  | .hbm, ⟨9, _⟩ => ⟨S2048x49, .f32⟩
  | .hbm, ⟨10, _⟩ => ⟨S_, .f32⟩
  | .hbm, ⟨11, _⟩ => ⟨S2048x49, .f32⟩
  | .hbm, ⟨12, _⟩ => ⟨S2048x49, .f32⟩
  | .hbm, ⟨13, _⟩ => ⟨S2048x256x49, .f32⟩
  | .hbm, ⟨14, _⟩ => ⟨S_, .f32⟩
  | .hbm, ⟨15, _⟩ => ⟨S2048x49, .f32⟩
  | .hbm, ⟨16, _⟩ => ⟨S2048x49, .f32⟩
  | .hbm, ⟨17, _⟩ => ⟨S_, .f32⟩
  | .hbm, ⟨18, _⟩ => ⟨S2048x49, .f32⟩
  | .hbm, ⟨19, _⟩ => ⟨S2048x49, .f32⟩
  | .hbm, ⟨20, _⟩ => ⟨S2048x49x1, .f32⟩
  | .hbm, ⟨21, _⟩ => ⟨S2048x1x49, .f32⟩
  | .hbm, ⟨22, _⟩ => ⟨S2048x49x49, .f32⟩
  | .hbm, ⟨23, _⟩ => ⟨S2048x49x49, .f32⟩
  | .hbm, ⟨24, _⟩ => ⟨S2048x49x49, .f32⟩
  | .hbm, ⟨25, _⟩ => ⟨S2048x49x49, .f32⟩
  | .hbm, ⟨26, _⟩ => ⟨S_, .i32⟩
  | .hbm, ⟨27, _⟩ => ⟨S2048x49x49, .i32⟩
  | .hbm, ⟨28, _⟩ => ⟨S2048x49x49, .i1⟩
  | .hbm, ⟨29, _⟩ => ⟨S2048x49x49, .i1⟩
  | .hbm, ⟨30, _⟩ => ⟨S_, .f32⟩
  | .hbm, ⟨31, _⟩ => ⟨S_, .f32⟩
  | .hbm, ⟨32, _⟩ => ⟨S2048x49x49, .f32⟩
  | .hbm, ⟨33, _⟩ => ⟨S2048x49x49, .f32⟩
  | .hbm, ⟨34, _⟩ => ⟨S_, .f32⟩
  | .hbm, ⟨35, _⟩ => ⟨S_, .f32⟩
  | .hbm, ⟨36, _⟩ => ⟨S2048x49x49, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S_, .f32⟩
  | _, _ => ⟨S2048x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  shapeCasts_S2048x256x7x7_S2048x256x49 : S2048x256x7x7.ShapeCasts S2048x256x49
  reducesTo_S2048x256x49_S2048x49_d1 : S2048x256x49.ReducesTo [1] S2048x49
  h_S_ : 0 < S_.numel
  bcast_S_S2048x49 : S_.BroadcastsInDim S2048x49 (![] : Fin 0 → Fin S2048x49.rank)
  bcast_S2048x49_S2048x49x1_0_1 : S2048x49.BroadcastsInDim S2048x49x1 (![0, 1] : Fin 2 → Fin S2048x49x1.rank)
  bcast_S2048x49_S2048x1x49_0_2 : S2048x49.BroadcastsInDim S2048x1x49 (![0, 2] : Fin 2 → Fin S2048x1x49.rank)
  bcast_S2048x49x1_S2048x49x49_0_1_2 : S2048x49x1.BroadcastsInDim S2048x49x49 (![0, 1, 2] : Fin 3 → Fin S2048x49x49.rank)
  bcast_S2048x1x49_S2048x49x49_0_1_2 : S2048x1x49.BroadcastsInDim S2048x49x49 (![0, 1, 2] : Fin 3 → Fin S2048x49x49.rank)
  bcast_S_S2048x49x49 : S_.BroadcastsInDim S2048x49x49 (![] : Fin 0 → Fin S2048x49x49.rank)
  reducesTo_S2048x49x49_S_d0_1_2 : S2048x49x49.ReducesTo [0, 1, 2] S_
  natLt_1_32 : 1 < 32
  dot_S2048x256x49_S2048x256x49_S2048x49x49_1_1_2_2_0_0_wf : DotDims.WF S2048x256x49 S2048x256x49 S2048x49x49 [1] [1] [2] [2] [0] [0]

variable [Facts₀]

def dot_S2048x256x49_S2048x256x49_S2048x49x49_1_1_2_2_0_0 : DotDims S2048x256x49 S2048x256x49 S2048x49x49 where
  lhsContracting := [1]
  rhsContracting := [1]
  lhsNonContracting := [2]
  rhsNonContracting := [2]
  lhsBatch := [0]
  rhsBatch := [0]
  wf := dot_S2048x256x49_S2048x256x49_S2048x49x49_1_1_2_2_0_0_wf

class Facts : Prop extends Facts₀ where

variable [Facts]
-- ==== Proof.Pieces.lean ====
/-
  What each case of the kernel body leaves in the two carried 1×1 accumulators and, at a group's last step, in the two
  output blocks — as the body's arithmetic applied to the blocks it loaded and to what the accumulators held, for any
  float values. At a group's first step the accumulators are first set to zero and the step's partial sums added to
  that; at every other step the partial sums are added to what the step before left; at the last step the updated
  accumulators are also spread over the output blocks.
-/
import proofs.«118230_j6622839571360_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sA0 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 : Vec F S32x256x49 .f32) (x1 : Vec F S32x256x49 .f32) (x2 : Vec F S32x49x49 .i32) :
    sout0_A_0 c i a2 h2 a3 h3 a4 h4 a5 h5 a6 h6 a7 h7 a8 h8 hc0 hc1 x0 x1 x2 = k0_pay1 (k0_pay8 x0 x1 x2) (k0_pay5 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1x1) hz2]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem sA1 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 : Vec F S32x256x49 .f32) (x1 : Vec F S32x256x49 .f32) (x2 : Vec F S32x49x49 .i32) :
    sout0_A_1 c i a2 h2 a3 h3 a4 h4 a5 h5 a6 h6 a7 h7 a8 h8 hc0 hc1 x0 x1 x2 = k0_pay2 (k0_pay7 x2) (k0_pay6 (F := F)) := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1x1) hz2]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem sB0 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 : Vec F S32x256x49 .f32) (x1 : Vec F S32x256x49 .f32) (x2 : Vec F S32x49x49 .i32) (xs0 : Vec F S1x1 .f32) (xs1 : Vec F S1x1 .f32) :
    sout0_B_0 c i a2 h2 a3 h3 a4 h4 a5 h5 a6 h6 a7 h7 a8 h8 hc0 hc1 x0 x1 x2 xs0 xs1 = k0_pay1 (k0_pay8 x0 x1 x2) xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem sB1 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 : Vec F S32x256x49 .f32) (x1 : Vec F S32x256x49 .f32) (x2 : Vec F S32x49x49 .i32) (xs0 : Vec F S1x1 .f32) (xs1 : Vec F S1x1 .f32) :
    sout0_B_1 c i a2 h2 a3 h3 a4 h4 a5 h5 a6 h6 a7 h7 a8 h8 hc0 hc1 x0 x1 x2 xs0 xs1 = k0_pay2 (k0_pay7 x2) xs1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem sC0 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S32x256x49 .f32) (x1 : Vec F S32x256x49 .f32) (x2 : Vec F S32x49x49 .i32) (xs0 : Vec F S1x1 .f32) (xs1 : Vec F S1x1 .f32) :
    sout0_C_0 c i a2 h2 a3 h3 a4 h4 a5 h5 a6 h6 a7 h7 a8 h8 hc0 hc1 x0 x1 x2 xs0 xs1 = k0_pay1 (k0_pay8 x0 x1 x2) xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem sC1 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S32x256x49 .f32) (x1 : Vec F S32x256x49 .f32) (x2 : Vec F S32x49x49 .i32) (xs0 : Vec F S1x1 .f32) (xs1 : Vec F S1x1 .f32) :
    sout0_C_1 c i a2 h2 a3 h3 a4 h4 a5 h5 a6 h6 a7 h7 a8 h8 hc0 hc1 x0 x1 x2 xs0 xs1 = k0_pay2 (k0_pay7 x2) xs1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem oC3 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S32x256x49 .f32) (x1 : Vec F S32x256x49 .f32) (x2 : Vec F S32x49x49 .i32) (xs0 : Vec F S1x1 .f32) (xs1 : Vec F S1x1 .f32) :
    out0_C_3 c i a2 h2 a3 h3 a4 h4 a5 h5 a6 h6 a7 h7 a8 h8 hc0 hc1 x0 x1 x2 xs0 xs1 = k0_pay3 (k0_pay1 (k0_pay8 x0 x1 x2) xs0) := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz3]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

theorem oC4 (c : Dev nD) (i : grid0.Coords) (a2 : Memref sig .tc .vmem S32x256x49 .f32) (h2 : a2.IsWhole) (a3 : Memref sig .tc .vmem S32x256x49 .f32) (h3 : a3.IsWhole) (a4 : Memref sig .tc .vmem S32x49x49 .i32) (h4 : a4.IsWhole) (a5 : Memref sig .tc .vmem S1x8x128 .f32) (h5 : a5.IsWhole) (a6 : Memref sig .tc .vmem S1x8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S32x256x49 .f32) (x1 : Vec F S32x256x49 .f32) (x2 : Vec F S32x49x49 .i32) (xs0 : Vec F S1x1 .f32) (xs1 : Vec F S1x1 .f32) :
    out0_C_4 c i a2 h2 a3 h3 a4 h4 a5 h5 a6 h6 a7 h7 a8 h8 hc0 hc1 x0 x1 x2 xs0 xs1 = k0_pay4 (k0_pay2 (k0_pay7 x2) xs1) := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz3]
  simp only [View.readCov_unit_zero (S := S1x1) _ hz2, View.readAt_eq_ld, h2.read_unread, h3.read_unread, h4.read_unread, h7.read_unread, h8.read_unread, View.ld_unit_zero (S := S32x256x49) hz3, View.ld_unit_zero (S := S32x49x49) hz3, View.ld_unit_zero (S := S1x1) hz2]

end Cert.KernelIdeal.Pieces

end
-- ==== Proof.Spec.lean ====
/-
  The masked mean of pairwise cosine similarities, on the extended reals.

  For a batch of nb pairs of 256-channel feature maps over 49 positions, B and M, and an integer mask A over
  pairs of positions: at batch entry b the cosine of position p of B against position q of M is the channel
  inner product divided by the product of the two channel norms, each norm floored at a small positive word;
  the numerator is the sum of the cosines where the mask is nonzero, the denominator the number of such places,
  and the result is minus their quotient. Also here: the sums over a batch of 2048 split into 64 consecutive
  blocks of 32, and a running sum that restarts every 32 steps in closed form. Nothing here mentions a program.
-/
import Idealize.ShloMosaic.PureOps.Ideal.Laws
import Idealize.ShloMosaic.Lib.ValueIdx

noncomputable section

open scoped BigOperators

namespace MaskedCosine

open Idealize.ShloMosaic Idealize.ShloMosaic.ValueIdx

/-- The floor under a norm: the f32 word nearest to one millionth. -/
def floorWord : EReal := Ideal.ofBits .f32 0x358637BD#32

section Defs
variable {nb : Nat}

/-- The channel norm of X at batch entry b, position p, floored. -/
def norm (X : (⟨3, ![nb, 256, 49]⟩ : Shape).Idx → EReal) (b : Fin nb) (p : Fin 49) : EReal :=
  max (Ideal.sqrt (∑ k : Fin 256, X (ix3 b k p) * X (ix3 b k p))) floorWord

/-- The cosine of position p of B against position q of M at batch entry b. -/
def cosine (B M : (⟨3, ![nb, 256, 49]⟩ : Shape).Idx → EReal) (b : Fin nb) (p q : Fin 49) : EReal :=
  Ideal.div (∑ k : Fin 256, B (ix3 b k p) * M (ix3 b k q)) (norm B b p * norm M b q)

/-- The mask bit of an integer: one where it is nonzero. -/
def bit (a : BitVec 32) : BitVec 1 := IntOp.cmpi .ne a 0#32

/-- The masked cosine. -/
def term (B M : (⟨3, ![nb, 256, 49]⟩ : Shape).Idx → EReal) (A : (⟨3, ![nb, 49, 49]⟩ : Shape).Idx → BitVec 32)
    (b : Fin nb) (p q : Fin 49) : EReal :=
  Scalar.select (bit (A (ix3 b p q))) (cosine B M b p q) 0

/-- The mask bit as a number. -/
def unit (A : (⟨3, ![nb, 49, 49]⟩ : Shape).Idx → BitVec 32) (b : Fin nb) (p q : Fin 49) : EReal :=
  ((((bit (A (ix3 b p q))).setWidth 32).toInt : ℝ) : EReal)

def numer (B M : (⟨3, ![nb, 256, 49]⟩ : Shape).Idx → EReal) (A : (⟨3, ![nb, 49, 49]⟩ : Shape).Idx → BitVec 32) : EReal :=
  ∑ b : Fin nb, ∑ p : Fin 49, ∑ q : Fin 49, term B M A b p q

def denom (A : (⟨3, ![nb, 49, 49]⟩ : Shape).Idx → BitVec 32) : EReal :=
  ∑ b : Fin nb, ∑ p : Fin 49, ∑ q : Fin 49, unit A b p q

end Defs

/-- Minus the mean of the masked cosines. -/
def loss (num den : EReal) : EReal := -(Ideal.div num den)

/-! ## Blocks of 32 consecutive batch entries -/

/-- Block n of an array whose leading axis has 2048 entries: entries 32 n … 32 n + 31. -/
def block {α : Type} {a b : Nat} (X : (⟨3, ![2048, a, b]⟩ : Shape).Idx → α) (n : Fin 64) :
    (⟨3, ![32, a, b]⟩ : Shape).Idx → α :=
  fun y => X (ix3 ⟨32 * n.val + (y 0).val, by have := n.isLt; have h : (y 0).val < 32 := (y 0).isLt; omega⟩ (y 1) (y 2))

/-- A sum over 2048 entries is the sum over the 64 blocks of the sums over each block's 32 entries. -/
theorem sum_blocks {M : Type*} [AddCommMonoid M] (f : Fin 2048 → M) :
    ∑ b, f b = ∑ n : Fin 64, ∑ t : Fin 32, f ⟨32 * n.val + t.val, by have := n.isLt; have := t.isLt; omega⟩ := by
  rw [← Fintype.sum_prod_type']
  refine (Fintype.sum_equiv (finProdFinEquiv (m := 64) (n := 32)) _ f fun x => ?_).symm
  refine congrArg f (Fin.ext ?_)
  show 32 * x.1.val + x.2.val = x.2.val + 32 * x.1.val
  omega

theorem numer_blocks (B M : (⟨3, ![2048, 256, 49]⟩ : Shape).Idx → EReal) (A : (⟨3, ![2048, 49, 49]⟩ : Shape).Idx → BitVec 32) :
    numer B M A = ∑ n : Fin 64, numer (block B n) (block M n) (block A n) := by
  unfold numer
  rw [sum_blocks]
  rfl

theorem denom_blocks (A : (⟨3, ![2048, 49, 49]⟩ : Shape).Idx → BitVec 32) :
    denom A = ∑ n : Fin 64, denom (block A n) := by
  unfold denom
  rw [sum_blocks]
  rfl

/-! ## A running sum that restarts every 32 steps -/

/-- The running sum of f after step n: restarted from zero at every multiple of 32. -/
def running (f : ℕ → EReal) : ℕ → EReal
  | 0 => 0 + f 0
  | n + 1 => if (n + 1) % 32 = 0 then 0 + f (n + 1) else running f n + f (n + 1)

theorem running_zero (f : ℕ → EReal) : running f 0 = 0 + f 0 := rfl

theorem running_restart (f : ℕ → EReal) (n : ℕ) (h : (n + 1) % 32 = 0) : running f (n + 1) = 0 + f (n + 1) := by
  rw [running]; exact if_pos h

theorem running_step (f : ℕ → EReal) (n : ℕ) (h : ¬(n + 1) % 32 = 0) : running f (n + 1) = running f n + f (n + 1) := by
  rw [running]; exact if_neg h

theorem running_eq (f : ℕ → EReal) : ∀ n, running f n = ∑ j ∈ Finset.range (n % 32 + 1), f (n - n % 32 + j)
  | 0 => by simp [running]
  | n + 1 => by
    unfold running
    split_ifs with h
    · rw [h]; simp
    · have h1 : (n + 1) % 32 = n % 32 + 1 := by omega
      have h2 : n + 1 - (n % 32 + 1) = n - n % 32 := by omega
      rw [running_eq f n, h1, h2, Finset.sum_range_succ (n := n % 32 + 1)]
      congr 2
      omega

/-- After the last step of a group of 32 the running sum is the group's sum. -/
theorem running_last (f : ℕ → EReal) (c : ℕ) : running f (32 * c + 31) = ∑ j : Fin 32, f (32 * c + j.val) := by
  rw [running_eq, show (32 * c + 31) % 32 = 31 by omega, show 32 * c + 31 - 31 = 32 * c by omega,
    Finset.sum_range (fun j => f (32 * c + j))]

end MaskedCosine

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibTrailingAxis.lean ====
/-
  Layout lemmas for per-row quantities of a rank-3 block, read at an index.

  A per-row scalar of an a×b×c block (a row mean, a row norm) lives in an a×b array, is re-shaped to a×b×1 so that
  arithmetic on it keeps a trailing unit axis, and is then broadcast along that axis to a×b×c. A per-column vector of
  c entries is re-shaped to 1×1×c and broadcast along the two leading axes. Each step reads one entry of its operand:
    * the a×b array viewed as a×b×1 reads (p, q) at (p, q, 0);
    * the a×b×1 array broadcast to a×b×c reads (p, q, 0) at (p, q, r);
    * the c-vector viewed as 1×1×c and broadcast to a×b×c reads r at (p, q, r).
-/
import Idealize.ShloMosaic.Lib.ValueIdx
import Idealize.ShloMosaic.Lib.Pipeline.Value

namespace Cert.Lib.TrailingAxis

open Idealize.ShloMosaic Idealize.ShloMosaic.ValueIdx

variable {α : Type} {a b c : Nat}

/-- An a×b array viewed as a×b×1 (a trailing unit axis added) reads its entry (p, q) at (p, q, u). -/
theorem addUnitLast_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) := by
  refine shapeCast_apply x h _ _ ?_
  rw [Shape.rowMajor_val_two, Shape.rowMajor_val_three]
  have hu : u.val = 0 := by omega
  show p.val * b + q.val = (p.val * b + q.val) * 1 + u.val
  omega

/-- An a×b×1 array broadcast along its trailing unit axis to a×b×c reads its entry (p, q, 0) at (p, q, r). -/
theorem broadcastLast_apply (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q 0) :=
  broadcastTo_apply x h _ (ix3 p q 0) fun ax => by
    match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl

/-- A vector of c entries viewed as 1×1×c and broadcast along the two leading axes to a×b×c reads its entry r at
    (p, q, r). -/
theorem broadcastLeading2_apply (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) := by
  refine (broadcastTo_apply _ h₂ _ (ix3 0 0 r) fun ax => ?_).trans ?_
  · match ax with
    | ⟨0, _⟩ => rfl
    | ⟨1, _⟩ => rfl
    | ⟨2, _⟩ =>
      show r.val = if c = 1 then 0 else r.val
      split_ifs with hc
      · have := r.isLt; omega
      · rfl
  · refine shapeCast_apply x h₁ _ _ ?_
    rw [Shape.rowMajor_val_one, Shape.rowMajor_val_three]
    show r.val = ((0 : Nat) * 1 + 0) * c + r.val
    omega

end Cert.Lib.TrailingAxis
-- ==== Proof.LibSlabs.lean ====
/-
  An a×b×c array handled slab by slab along its middle axis, read at an index.

  Slab n is the a×1×c slice at middle coordinate n. Read at (p, 0, q) it is the array at (p, n, q); with its unit
  middle axis dropped it is an a×c matrix holding at (p, q) what the slab held at (p, 0, q), and the unit axis put back
  undoes that. A rectangle of the slab's extents placed at (0, n, 0) sends the slab's index (p, 0, q) to (p, n, q) of the
  array. Swapping the last two axes of an a×b×c array gives the a×c×b array holding at (p, q, r) the entry (p, r, q).
  An a×1 column with its unit axis dropped is the vector holding at p the column's entry (p, 0).
  Nothing here mentions a program.
-/
import Idealize.ShloMosaic.Lib.Pipeline.Value
import Idealize.ShloMosaic.Lib.ValueIdx

noncomputable section

namespace Cert.Lib.Slabs

open Idealize.ShloMosaic Idealize.ShloMosaic.ValueIdx

variable {α : Type} {a b c : Nat}

/-- Slab n of the middle axis read at (p, 0, q): the array at (p, n, q). -/
theorem slab_apply (x : (⟨3, ![a, b, c]⟩ : Shape).Idx → α) (n : Nat) (hn : n < b)
    (h : (⟨3, ![a, b, c]⟩ : Shape).Slices ![0, n, 0] ⟨3, ![a, 1, c]⟩) (p : Fin a) (q : Fin c) :
    extractStridedSlice ⟨3, ![a, 1, c]⟩ ![0, n, 0] x h (ix3 p (0 : Fin 1) q) = x (ix3 p ⟨n, hn⟩ q) :=
  extractStridedSlice_apply ![0, n, 0] x h (ix3 p (0 : Fin 1) q) (ix3 p ⟨n, hn⟩ q) fun ax => by
    match ax with
    | ⟨0, _⟩ => show p.val = 0 + p.val; omega
    | ⟨1, _⟩ => show n = n + 0; rfl
    | ⟨2, _⟩ => show q.val = 0 + q.val; omega

/-- An a×1×c slab with its unit axis dropped reads at (p, q) the slab's entry (p, 0, q). -/
theorem dropMid_apply (v : (⟨3, ![a, 1, c]⟩ : Shape).Idx → α)
    (h : (⟨3, ![a, 1, c]⟩ : Shape).ShapeCasts ⟨2, ![a, c]⟩) (p : Fin a) (q : Fin c) :
    shapeCast ⟨2, ![a, c]⟩ v h (ix2 p q) = v (ix3 p (0 : Fin 1) q) := by
  refine shapeCast_apply v h _ _ ?_
  rw [Shape.rowMajor_val_three, Shape.rowMajor_val_two]
  show (p.val * 1 + 0) * c + q.val = p.val * c + q.val
  rw [Nat.mul_one, Nat.add_zero]

/-- An a×c matrix given a unit middle axis reads at (p, 0, q) the matrix's entry (p, q). -/
theorem addMid_apply (v : (⟨2, ![a, c]⟩ : Shape).Idx → α)
    (h : (⟨2, ![a, c]⟩ : Shape).ShapeCasts ⟨3, ![a, 1, c]⟩) (p : Fin a) (q : Fin c) :
    shapeCast ⟨3, ![a, 1, c]⟩ v h (ix3 p (0 : Fin 1) q) = v (ix2 p q) := by
  refine shapeCast_apply v h _ _ ?_
  rw [Shape.rowMajor_val_three, Shape.rowMajor_val_two]
  show p.val * c + q.val = (p.val * 1 + 0) * c + q.val
  rw [Nat.mul_one, Nat.add_zero]

/-- An a×1 column with its unit axis dropped reads at p the column's entry (p, 0). -/
theorem dropCol_apply (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) := by
  refine shapeCast_apply v h _ _ ?_
  rw [Shape.rowMajor_val_one, Shape.rowMajor_val_two]
  show p.val * 1 + 0 = p.val
  omega

/-- The last two axes of an a×b×c array swapped: the result at (p, q, r) is the array at (p, r, q). -/
theorem swapLast_apply (x : (⟨3, ![a, b, c]⟩ : Shape).Idx → α)
    (h : (⟨3, ![a, b, c]⟩ : Shape).Transposes [0, 2, 1] ⟨3, ![a, c, b]⟩) (p : Fin a) (q : Fin c) (r : Fin b) :
    transpose ⟨3, ![a, c, b]⟩ [0, 2, 1] x h (ix3 p q r) = x (ix3 p r q) :=
  transpose_apply [0, 2, 1] x h (ix3 p q r) (ix3 p r q) fun ax => by
    match ax with
    | ⟨0, _⟩ => rfl
    | ⟨1, _⟩ => rfl
    | ⟨2, _⟩ => rfl

/-- The rectangle of slab n's extents at (0, n, 0) places the slab's index (p, 0, q) at (p, n, q) of the array. -/
theorem slabRect_emb (n : Nat) (hn : n < b)
    (inb : ∀ ax, (![0, n, 0] : Fin 3 → Nat) ax + (⟨3, ![a, 1, c]⟩ : Shape).size ax ≤ (⟨3, ![a, b, c]⟩ : Shape).size ax)
    (p : Fin a) (q : Fin c) :
    (Rect.unit (s := ⟨3, ![a, b, c]⟩) ![0, n, 0] (⟨3, ![a, 1, c]⟩ : Shape).size inb).emb (ix3 p (0 : Fin 1) q)
      = ix3 p ⟨n, hn⟩ q := by
  funext ax; apply Fin.ext
  match ax with
  | ⟨0, _⟩ => show 0 + 1 * p.val = p.val; omega
  | ⟨1, _⟩ => show n + 1 * 0 = n; omega
  | ⟨2, _⟩ => show 0 + 1 * q.val = q.val; omega

/-- Every index of an a×1×c slab has middle coordinate 0. -/
theorem eq_ix3_mid (y : (⟨3, ![a, 1, c]⟩ : Shape).Idx) : y = ix3 (y 0) (0 : Fin 1) (y 2) := by
  funext ax
  match ax with
  | ⟨0, _⟩ => rfl
  | ⟨1, h1⟩ =>
    apply Fin.ext
    have h : (y ⟨1, h1⟩).val < 1 := (y ⟨1, h1⟩).isLt
    show (y ⟨1, h1⟩).val = 0
    omega
  | ⟨2, _⟩ => rfl

end Cert.Lib.Slabs

end
-- ==== Proof.LibAxisReads.lean ====
/-
  Two more vector operations of a kernel body read at an index, on the extended reals or any values: the sum
  along the MIDDLE axis of a rank-3 block as a sum over that axis's coordinate, and an a×1×c array broadcast
  along its unit middle axis to a×b×c. (Neighbours of the first-axis and last-axis sums and of the trailing-axis
  broadcast.) Nothing here mentions a program.
-/
import Idealize.ShloMosaic.PureOps.Ideal.Laws
import Idealize.ShloMosaic.Lib.ValueIdx
import Idealize.ShloMosaic.Lib.Pipeline.Value

open scoped BigOperators

namespace Cert.Lib.AxisReads

open Idealize.ShloMosaic Idealize.ShloMosaic.ValueIdx

variable {a b c : Nat} {φ : FTy}

/-- The sum along the MIDDLE axis of an a×b×c block is at (p, r) the sum over q of the block at (p, q, r). -/
theorem sum_mid_axis_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ q : Fin b, src (ix3 p q r) := by
  rw [Ideal.multiReduction_add_single]
  refine Finset.sum_congr rfl fun q _ => congrArg src ?_
  funext ax; apply Fin.ext
  match ax with
  | ⟨0, _⟩ => rfl
  | ⟨1, _⟩ => rfl
  | ⟨2, _⟩ => rfl

/-- An a×1×c array broadcast along its unit middle axis to a×b×c reads its entry (p, 0, r) at (p, q, r). -/
theorem broadcastMid_apply {α : Type} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p 0 r) :=
  broadcastTo_apply x h _ (ix3 p 0 r) fun ax => by
    match ax with
    | ⟨0, _⟩ =>
      show p.val = if a = 1 then 0 else p.val
      split_ifs with ha
      · have := p.isLt; omega
      · rfl
    | ⟨1, _⟩ => rfl
    | ⟨2, _⟩ =>
      show r.val = if c = 1 then 0 else r.val
      split_ifs with hc
      · have := r.isLt; omega
      · rfl

end Cert.Lib.AxisReads
-- ==== Proof.BlockValue.lean ====
/-
  What one grid step of the kernel computes from its three blocks, on the extended reals: the step's partial
  numerator is the sum over the block's 32 batch entries and all pairs of positions of the masked cosines, its
  partial denominator the number of places where the mask is nonzero. Each vector operation of the body is read
  at an index: the batched product as a sum over channels, the three lane sums as sums over one coordinate each,
  the re-shapings and broadcasts as re-indexings.
-/
import proofs.«118230_j6622839571360_2_alg».proof.Proof.Gen.KernelIdeal.Skeleton
import proofs.«118230_j6622839571360_2_alg».proof.Proof.Spec
import proofs.«118230_j6622839571360_2_alg».proof.Proof.LibBlockReads
import proofs.«118230_j6622839571360_2_alg».proof.Proof.LibTrailingAxis
import proofs.«118230_j6622839571360_2_alg».proof.Proof.LibSlabs
import proofs.«118230_j6622839571360_2_alg».proof.Proof.LibAxisReads
import Idealize.ShloMosaic.PureOps.Ideal.Laws
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx
open Cert.Lib.BlockReads Cert.Lib.TrailingAxis Cert.Lib.Slabs Cert.Lib.AxisReads

/-- The operand indices of the batched product at output index i and contraction index c, coordinate by coordinate. -/
theorem lhs_0 (i : S32x49x49.Idx) (c : dot_S32x256x49_S32x256x49_S32x49x49_1_1_2_2_0_0.contr.Idx) : (dot_S32x256x49_S32x256x49_S32x49x49_1_1_2_2_0_0.lhsIdx i c 0).val = (i 0).val := by
  unfold DotDims.lhsIdx
  rw [dif_pos (show (0 : Fin S32x256x49.rank) ∈ dot_S32x256x49_S32x256x49_S32x49x49_1_1_2_2_0_0.lhsBatch by decide)]
  rfl
theorem lhs_1 (i : S32x49x49.Idx) (c : dot_S32x256x49_S32x256x49_S32x49x49_1_1_2_2_0_0.contr.Idx) : (dot_S32x256x49_S32x256x49_S32x49x49_1_1_2_2_0_0.lhsIdx i c 1).val = (c ⟨0, by decide⟩).val :=
  dot_S32x256x49_S32x256x49_S32x49x49_1_1_2_2_0_0.lhsIdx_val_of_single rfl i c
theorem lhs_2 (i : S32x49x49.Idx) (c : dot_S32x256x49_S32x256x49_S32x49x49_1_1_2_2_0_0.contr.Idx) : (dot_S32x256x49_S32x256x49_S32x49x49_1_1_2_2_0_0.lhsIdx i c 2).val = (i 1).val := by
  unfold DotDims.lhsIdx
  rw [dif_neg (show ¬(2 : Fin S32x256x49.rank) ∈ dot_S32x256x49_S32x256x49_S32x49x49_1_1_2_2_0_0.lhsBatch by decide), dif_pos (show (2 : Fin S32x256x49.rank) ∈ dot_S32x256x49_S32x256x49_S32x49x49_1_1_2_2_0_0.lhsNonContracting by decide)]
  rfl
theorem rhs_0 (i : S32x49x49.Idx) (c : dot_S32x256x49_S32x256x49_S32x49x49_1_1_2_2_0_0.contr.Idx) : (dot_S32x256x49_S32x256x49_S32x49x49_1_1_2_2_0_0.rhsIdx i c 0).val = (i 0).val := by
  unfold DotDims.rhsIdx
  rw [dif_pos (show (0 : Fin S32x256x49.rank) ∈ dot_S32x256x49_S32x256x49_S32x49x49_1_1_2_2_0_0.rhsBatch by decide)]
  rfl
theorem rhs_1 (i : S32x49x49.Idx) (c : dot_S32x256x49_S32x256x49_S32x49x49_1_1_2_2_0_0.contr.Idx) : (dot_S32x256x49_S32x256x49_S32x49x49_1_1_2_2_0_0.rhsIdx i c 1).val = (c ⟨0, by decide⟩).val :=
  dot_S32x256x49_S32x256x49_S32x49x49_1_1_2_2_0_0.rhsIdx_val_of_single rfl i c
theorem rhs_2 (i : S32x49x49.Idx) (c : dot_S32x256x49_S32x256x49_S32x49x49_1_1_2_2_0_0.contr.Idx) : (dot_S32x256x49_S32x256x49_S32x49x49_1_1_2_2_0_0.rhsIdx i c 2).val = (i 2).val := by
  unfold DotDims.rhsIdx
  rw [dif_neg (show ¬(2 : Fin S32x256x49.rank) ∈ dot_S32x256x49_S32x256x49_S32x49x49_1_1_2_2_0_0.rhsBatch by decide), dif_pos (show (2 : Fin S32x256x49.rank) ∈ dot_S32x256x49_S32x256x49_S32x49x49_1_1_2_2_0_0.rhsNonContracting by decide)]
  rfl

/-- The batched product into zeros, at (t, p, q): the sum over channels k of A(t, k, p) · B(t, k, q). -/
theorem dots_apply (A B : FVec Ideal S32x256x49 .bf16) (t : Fin 32) (p q : Fin 49) :
    matmul dot_S32x256x49_S32x256x49_S32x49x49_1_1_2_2_0_0 none A B (constant S32x49x49 .f32 0x00000000#32) (ix3 t p q)
      = ∑ k : Fin 256, A (ix3 t k p) * B (ix3 t k q) := by
  show FloatOps.matmul _ none A B _ (ix3 t p q) = _
  rw [Ideal.matmul_constant_zero_apply, ← Equiv.sum_comp (contrEquiv1 dot_S32x256x49_S32x256x49_S32x49x49_1_1_2_2_0_0 256 rfl rfl).symm]
  refine Finset.sum_congr rfl fun k _ => ?_
  have hk := contrEquiv1_symm_val dot_S32x256x49_S32x256x49_S32x49x49_1_1_2_2_0_0 256 rfl rfl k
  have el : dot_S32x256x49_S32x256x49_S32x49x49_1_1_2_2_0_0.lhsIdx (ix3 t p q) ((contrEquiv1 dot_S32x256x49_S32x256x49_S32x49x49_1_1_2_2_0_0 256 rfl rfl).symm k) = ix3 t k p := funext fun a => Fin.ext (by
    match a with
    | ⟨0, _⟩ => exact lhs_0 _ _
    | ⟨1, _⟩ => exact (lhs_1 _ _).trans hk
    | ⟨2, _⟩ => exact lhs_2 _ _)
  have er : dot_S32x256x49_S32x256x49_S32x49x49_1_1_2_2_0_0.rhsIdx (ix3 t p q) ((contrEquiv1 dot_S32x256x49_S32x256x49_S32x49x49_1_1_2_2_0_0 256 rfl rfl).symm k) = ix3 t k q := funext fun a => Fin.ext (by
    match a with
    | ⟨0, _⟩ => exact rhs_0 _ _
    | ⟨1, _⟩ => exact (rhs_1 _ _).trans hk
    | ⟨2, _⟩ => exact rhs_2 _ _)
  rw [el, er]

/-- The floored channel norms of a block, as the body computes them. -/
def nrm (x : FVec Ideal S32x256x49 .f32) : FVec Ideal S32x49 .f32 :=
  maximumf (sqrt (multiReduction .add [1] S32x49 (mulf x x) 0x00000000#32 reduces_S32x256x49_S32x49 (.inl rfl) rfl))
    (broadcast S32x49 (Scalar.ofBits .f32 0x358637BD#32))

theorem nrm_apply (x : FVec Ideal S32x256x49 .f32) (t : Fin 32) (p : Fin 49) :
    nrm x (ix2 t p) = MaskedCosine.norm x t p :=
  congrArg (fun z => max (Ideal.sqrt z) MaskedCosine.floorWord)
    (sum_mid_axis_apply (φ := .f32) (mulf x x) 0x00000000#32 reduces_S32x256x49_S32x49 (.inl rfl) rfl t p)

/-- The step's partial numerator: the sum of the masked cosines over the block. -/
theorem numer_apply (x0 x1 : Vec Ideal S32x256x49 .f32) (x2 : Vec Ideal S32x49x49 .i32) (u v : Fin 1) :
    k0_pay8 (F := Ideal) x0 x1 x2 (ix2 u v) = MaskedCosine.numer x0 x1 x2 := by
  unfold k0_pay8
  simp only [shapeCast_self]
  refine (sum_first_axis_apply (φ := .f32) _ 0x00000000#32 reduces_S32x1x1_S1x1 (.inl rfl) rfl u v).trans ?_
  unfold MaskedCosine.numer
  refine Finset.sum_congr rfl fun t _ => ?_
  refine (addUnitLast_apply _ shapeCasts_S32x1_S32x1x1 t u v).trans ?_
  refine (sum_mid_axis_apply (φ := .f32) _ 0x00000000#32 reduces_S32x49x1_S32x1 (.inl rfl) rfl t u).trans ?_
  refine Finset.sum_congr rfl fun p _ => ?_
  refine (addUnitLast_apply _ shapeCasts_S32x49_S32x49x1 t p u).trans ?_
  refine (sum_last_axis_apply (φ := .f32) _ 0x00000000#32 reduces_S32x49x49_S32x49 (.inl rfl) rfl t p).trans ?_
  refine Finset.sum_congr rfl fun q _ => ?_
  have e1 := dots_apply (truncf .bf16 x0 bitsLt_bf16_f32) (truncf .bf16 x1 bitsLt_bf16_f32) t p q
  have e2 : broadcastTo S32x49x49 (shapeCast S32x49x1 (nrm x0) shapeCasts_S32x49_S32x49x1) broadcasts_S32x49x1_S32x49x49 (ix3 t p q)
      = MaskedCosine.norm x0 t p :=
    (broadcast_cols_apply (nrm x0) shapeCasts_S32x49_S32x49x1 broadcasts_S32x49x1_S32x49x49 t p q).trans (nrm_apply x0 t p)
  have e3 : broadcastTo S32x49x49 (shapeCast S32x1x49 (nrm x1) shapeCasts_S32x49_S32x1x49) broadcasts_S32x1x49_S32x49x49 (ix3 t p q)
      = MaskedCosine.norm x1 t q :=
    ((broadcastMid_apply _ broadcasts_S32x1x49_S32x49x49 t p q).trans (addMid_apply (nrm x1) shapeCasts_S32x49_S32x1x49 t q)).trans
      (nrm_apply x1 t q)
  show Scalar.select (MaskedCosine.bit (x2 (ix3 t p q)))
      (Ideal.div (matmul (F := Ideal) dot_S32x256x49_S32x256x49_S32x49x49_1_1_2_2_0_0 none (truncf .bf16 x0 bitsLt_bf16_f32) (truncf .bf16 x1 bitsLt_bf16_f32) (constant S32x49x49 .f32 0x00000000#32) (ix3 t p q))
        (broadcastTo S32x49x49 (shapeCast S32x49x1 (nrm x0) shapeCasts_S32x49_S32x49x1) broadcasts_S32x49x1_S32x49x49 (ix3 t p q)
          * broadcastTo S32x49x49 (shapeCast S32x1x49 (nrm x1) shapeCasts_S32x49_S32x1x49) broadcasts_S32x1x49_S32x49x49 (ix3 t p q)))
      (Ideal.ofBits .f32 0x00000000#32) = _
  rw [e1, e2, e3, Ideal.ofBits_zero_f32]
  rfl

/-- The step's partial denominator, added to what the accumulator held: the number of nonzero mask entries of the block. -/
theorem denom_apply (x2 : Vec Ideal S32x49x49 .i32) (xs : Vec Ideal S1x1 .f32) (u v : Fin 1) :
    k0_pay2 (F := Ideal) (k0_pay7 (F := Ideal) x2) xs (ix2 u v) = xs (ix2 u v) + MaskedCosine.denom x2 := by
  unfold k0_pay2
  simp only [shapeCast_self, shapeCast_shapeCast]
  show xs (ix2 u v) + _ = _
  refine congrArg (xs (ix2 u v) + ·) ?_
  refine (sum_first_axis_apply (φ := .f32) _ 0x00000000#32 reduces_S32x1x1_S1x1 (.inl rfl) rfl u v).trans ?_
  unfold MaskedCosine.denom
  refine Finset.sum_congr rfl fun t _ => ?_
  refine (addUnitLast_apply _ shapeCasts_S32x1_S32x1x1 t u v).trans ?_
  refine (sum_mid_axis_apply (φ := .f32) _ 0x00000000#32 reduces_S32x49x1_S32x1 (.inl rfl) rfl t u).trans ?_
  refine Finset.sum_congr rfl fun p _ => ?_
  refine (addUnitLast_apply _ shapeCasts_S32x49_S32x49x1 t p u).trans ?_
  refine (sum_last_axis_apply (φ := .f32) _ 0x00000000#32 reduces_S32x49x49_S32x49 (.inl rfl) rfl t p).trans ?_
  rfl

/-- The accumulator update, for any float values: what the scratch held plus the step's partial sum. -/
theorem pay1_eq {F : FTy → Type} [FloatOps F] (v35 : FVec F S1x1 .f32) (v47 : Vec F S1x1 .f32) :
    k0_pay1 v35 v47 = addf v47 v35 := by
  unfold k0_pay1
  simp only [shapeCast_self, shapeCast_shapeCast]

/-- The value written back at a group's last step: the 1×1 accumulator spread over the 1×8×128 block. -/
theorem pay3_apply {F : FTy → Type} [FloatOps F] (v : Vec F S1x1 .f32) (i : S1x8x128.Idx) :
    k0_pay3 v i = v (ix2 0 0) := by
  unfold k0_pay3
  refine (broadcastTo_apply _ broadcasts_S1x1x1_S1x8x128 i (ix3 0 0 0) fun ax => ?_).trans
    (shapeCast_apply v shapeCasts_S1x1_S1x1x1 (ix3 0 0 0) (ix2 0 0) rfl)
  match ax with
  | ⟨0, _⟩ => show 0 = if (1 : Nat) = 1 then 0 else _; rw [if_pos rfl]
  | ⟨1, _⟩ => show 0 = if (1 : Nat) = 1 then 0 else _; rw [if_pos rfl]
  | ⟨2, _⟩ => show 0 = if (1 : Nat) = 1 then 0 else _; rw [if_pos rfl]

theorem pay4_apply {F : FTy → Type} [FloatOps F] (v : Vec F S1x1 .f32) (i : S1x8x128.Idx) :
    k0_pay4 v i = v (ix2 0 0) := by
  unfold k0_pay4
  refine (broadcastTo_apply _ broadcasts_S1x1x1_S1x8x128 i (ix3 0 0 0) fun ax => ?_).trans
    (shapeCast_apply v shapeCasts_S1x1_S1x1x1 (ix3 0 0 0) (ix2 0 0) rfl)
  match ax with
  | ⟨0, _⟩ => show 0 = if (1 : Nat) = 1 then 0 else _; rw [if_pos rfl]
  | ⟨1, _⟩ => show 0 = if (1 : Nat) = 1 then 0 else _; rw [if_pos rfl]
  | ⟨2, _⟩ => show 0 = if (1 : Nat) = 1 then 0 else _; rw [if_pos rfl]

end Cert.KernelIdeal.BlockValue

end
-- ==== Proof.Accum.lean ====
/-
  What the two carried accumulators hold after each grid step, on the extended reals: the running sum, restarted at
  every multiple of 32, of the steps' partial numerators (resp. partial denominators); and at a group's last step
  the two output blocks hold the same two numbers at every position. By induction on the step.
-/
import proofs.«118230_j6622839571360_2_alg».proof.Proof.Gen.KernelIdeal.Frame
import proofs.«118230_j6622839571360_2_alg».proof.Proof.Pieces
import proofs.«118230_j6622839571360_2_alg».proof.Proof.BlockValue
import proofs.«118230_j6622839571360_2_alg».proof.Proof.Spec
import Idealize.ShloMosaic.Lib.Pipeline.Value

set_option maxRecDepth 16384

noncomputable section

open scoped BigOperators

namespace Cert.KernelIdeal.Accum

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.BlockValue

variable (m : (ℓ : Loc nD τ sig) → Buf (Elt Ideal) ℓ)

/-- Step n's partial numerator: the masked cosines of its three blocks, summed. -/
def stepN (c : Dev nD) (n : ℕ) : EReal :=
  if h : n < cfg0.N then MaskedCosine.numer (iblk m c 0 ⟨n, h⟩ : Vec Ideal S32x256x49 .f32) (iblk m c 1 ⟨n, h⟩ : Vec Ideal S32x256x49 .f32)
    (iblk m c 2 ⟨n, h⟩ : Vec Ideal S32x49x49 .i32) else 0

/-- Step n's partial denominator: the number of nonzero entries of its mask block. -/
def stepD (c : Dev nD) (n : ℕ) : EReal :=
  if h : n < cfg0.N then MaskedCosine.denom (iblk m c 2 ⟨n, h⟩ : Vec Ideal S32x49x49 .i32) else 0

/-- The zero the accumulators are reset to. -/
theorem pay5_apply (y : S1x1.Idx) : k0_pay5 (F := Ideal) y = 0 := by
  unfold k0_pay5
  rw [shapeCast_self]
  exact Ideal.ofBits_zero_f32

theorem pay6_apply (y : S1x1.Idx) : k0_pay6 (F := Ideal) y = 0 := by
  unfold k0_pay6
  rw [shapeCast_self]
  exact Ideal.ofBits_zero_f32

/-- The numerator accumulator after a step: what it held plus the step's partial numerator. -/
theorem accN_apply (x0 x1 : Vec Ideal S32x256x49 .f32) (x2 : Vec Ideal S32x49x49 .i32) (xs : Vec Ideal S1x1 .f32) (y : S1x1.Idx) :
    k0_pay1 (F := Ideal) (k0_pay8 x0 x1 x2) xs y = xs y + MaskedCosine.numer x0 x1 x2 := by
  obtain ⟨u, v, rfl⟩ : ∃ (u v : Fin 1), y = ix2 u v := ⟨y 0, y 1, eq_ix2 y⟩
  rw [pay1_eq]
  exact congrArg (xs (ix2 u v) + ·) (numer_apply x0 x1 x2 u v)

/-- The denominator accumulator after a step. -/
theorem accD_apply (x2 : Vec Ideal S32x49x49 .i32) (xs : Vec Ideal S1x1 .f32) (y : S1x1.Idx) :
    k0_pay2 (F := Ideal) (k0_pay7 x2) xs y = xs y + MaskedCosine.denom x2 := by
  obtain ⟨u, v, rfl⟩ : ∃ (u v : Fin 1), y = ix2 u v := ⟨y 0, y 1, eq_ix2 y⟩
  exact denom_apply x2 xs u v

theorem stepN_eq (c : Dev nD) (t : Fin cfg0.N) :
    stepN m c t.val = MaskedCosine.numer (iblk m c 0 t : Vec Ideal S32x256x49 .f32) (iblk m c 1 t : Vec Ideal S32x256x49 .f32) (iblk m c 2 t : Vec Ideal S32x49x49 .i32) := by
  unfold stepN
  rw [dif_pos t.isLt]

theorem stepD_eq (c : Dev nD) (t : Fin cfg0.N) :
    stepD m c t.val = MaskedCosine.denom (iblk m c 2 t : Vec Ideal S32x49x49 .i32) := by
  unfold stepD
  rw [dif_pos t.isLt]

/-- A group's first step: the accumulators end at zero plus the step's partial sums. -/
theorem first_step (c : Dev nD) (t : Fin cfg0.N) (h0 : t.val % 32 = 0) (h1 : ¬t.val % 32 = 31) :
    (outsAt0 m c t.val t.isLt).2.2.1 = (fun _ => 0 + stepN m c t.val)
    ∧ (outsAt0 m c t.val t.isLt).2.2.2 = (fun _ => 0 + stepD m c t.val) := by
  have e := outsAt0_A m c t h0 h1
  constructor
  · refine (congrArg (fun z => z.2.2.1) e).trans ?_
    dsimp only
    refine (Pieces.sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).trans ?_
    funext y
    refine (accN_apply (iblk m c 0 t) (iblk m c 1 t) (iblk m c 2 t) _ y).trans ?_
    rw [pay5_apply, stepN_eq]
  · refine (congrArg (fun z => z.2.2.2) e).trans ?_
    dsimp only
    refine (Pieces.sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).trans ?_
    funext y
    refine (accD_apply (iblk m c 2 t) _ y).trans ?_
    rw [pay6_apply, stepD_eq]

/-- A step inside a group: the accumulators end at what the step before left plus the step's partial sums. -/
theorem middle_step (c : Dev nD) (t : Fin cfg0.N) (h0 : ¬t.val % 32 = 0) (h1 : ¬t.val % 32 = 31) (rN rD : EReal)
    (hN : (outsAt0 m c (t.val - 1) (Nat.lt_of_le_of_lt (Nat.sub_le _ _) t.isLt)).2.2.1 = fun _ => rN) (hD : (outsAt0 m c (t.val - 1) (Nat.lt_of_le_of_lt (Nat.sub_le _ _) t.isLt)).2.2.2 = fun _ => rD) :
    (outsAt0 m c t.val t.isLt).2.2.1 = (fun _ => rN + stepN m c t.val)
    ∧ (outsAt0 m c t.val t.isLt).2.2.2 = (fun _ => rD + stepD m c t.val) := by
  have e := outsAt0_B m c t h0 h1
  constructor
  · refine (congrArg (fun z => z.2.2.1) e).trans ?_
    dsimp only
    refine (Pieces.sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    refine (accN_apply (iblk m c 0 t) (iblk m c 1 t) (iblk m c 2 t) _ y).trans ?_
    rw [hN, stepN_eq]
  · refine (congrArg (fun z => z.2.2.2) e).trans ?_
    dsimp only
    refine (Pieces.sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    refine (accD_apply (iblk m c 2 t) _ y).trans ?_
    rw [hD, stepD_eq]

/-- A group's last step: as a step inside the group, and the two output blocks hold the updated accumulators at
    every position. -/
theorem last_step (c : Dev nD) (t : Fin cfg0.N) (h0 : ¬t.val % 32 = 0) (h1 : t.val % 32 = 31) (rN rD : EReal)
    (hN : (outsAt0 m c (t.val - 1) (Nat.lt_of_le_of_lt (Nat.sub_le _ _) t.isLt)).2.2.1 = fun _ => rN) (hD : (outsAt0 m c (t.val - 1) (Nat.lt_of_le_of_lt (Nat.sub_le _ _) t.isLt)).2.2.2 = fun _ => rD) :
    (outsAt0 m c t.val t.isLt).2.2.1 = (fun _ => rN + stepN m c t.val)
    ∧ (outsAt0 m c t.val t.isLt).2.2.2 = (fun _ => rD + stepD m c t.val)
    ∧ (outsAt0 m c t.val t.isLt).1 = (fun _ => rN + stepN m c t.val)
    ∧ (outsAt0 m c t.val t.isLt).2.1 = (fun _ => rD + stepD m c t.val) := by
  have e := outsAt0_C m c t h0 h1
  refine ⟨?_, ?_, ?_, ?_⟩
  · refine (congrArg (fun z => z.2.2.1) e).trans ?_
    dsimp only
    refine (Pieces.sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    refine (accN_apply (iblk m c 0 t) (iblk m c 1 t) (iblk m c 2 t) _ y).trans ?_
    rw [hN, stepN_eq]
  · refine (congrArg (fun z => z.2.2.2) e).trans ?_
    dsimp only
    refine (Pieces.sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    refine (accD_apply (iblk m c 2 t) _ y).trans ?_
    rw [hD, stepD_eq]
  · refine (congrArg (fun z => z.1) e).trans ?_
    dsimp only
    refine (Pieces.oC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    refine (pay3_apply _ y).trans ?_
    refine (accN_apply (iblk m c 0 t) (iblk m c 1 t) (iblk m c 2 t) _ _).trans ?_
    rw [hN, stepN_eq]
  · refine (congrArg (fun z => z.2.1) e).trans ?_
    dsimp only
    refine (Pieces.oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    funext y
    refine (pay4_apply _ y).trans ?_
    refine (accD_apply (iblk m c 2 t) _ _).trans ?_
    rw [hD, stepD_eq]

/-- After every step the accumulators hold the running sums; at a group's last step so do the output blocks. -/
theorem running_inv (c : Dev nD) : ∀ (n : ℕ) (h : n < cfg0.N),
    (outsAt0 m c n h).2.2.1 = (fun _ => MaskedCosine.running (stepN m c) n)
    ∧ (outsAt0 m c n h).2.2.2 = (fun _ => MaskedCosine.running (stepD m c) n)
    ∧ (n % 32 = 31 → (outsAt0 m c n h).1 = (fun _ => MaskedCosine.running (stepN m c) n)
        ∧ (outsAt0 m c n h).2.1 = (fun _ => MaskedCosine.running (stepD m c) n))
  | 0, h => by
    obtain ⟨a, b⟩ := first_step m c ⟨0, h⟩ (Nat.zero_mod _) (by show ¬(0 % 32 = 31); decide)
    exact ⟨a, b, fun h31 => absurd h31 (by decide)⟩
  | n + 1, h => by
    obtain ⟨ihN, ihD, -⟩ := running_inv c n (Nat.lt_of_succ_lt h)
    by_cases h0 : (n + 1) % 32 = 0
    · have h1 : ¬(n + 1) % 32 = 31 := by omega
      obtain ⟨a, b⟩ := first_step m c ⟨n + 1, h⟩ h0 h1
      rw [MaskedCosine.running_restart _ _ h0, MaskedCosine.running_restart _ _ h0]
      exact ⟨a, b, fun h31 => absurd h31 h1⟩
    · rw [MaskedCosine.running_step _ _ h0, MaskedCosine.running_step _ _ h0]
      by_cases h1 : (n + 1) % 32 = 31
      · obtain ⟨a, b, c3, c4⟩ := last_step m c ⟨n + 1, h⟩ h0 h1 _ _ ihN ihD
        exact ⟨a, b, fun _ => ⟨c3, c4⟩⟩
      · obtain ⟨a, b⟩ := middle_step m c ⟨n + 1, h⟩ h0 h1 _ _ ihN ihD
        exact ⟨a, b, fun h31 => absurd h31 h1⟩

end Cert.KernelIdeal.Accum

end
-- ==== Proof.Arrays.lean ====
/-
  The two result arrays of the kernel after its run, on the extended reals: each is 2×8×128, and row g holds at every
  position the sum over group g's 32 steps of the steps' partial numerators (resp. denominators). The last step of
  group g writes row g back (its block index is (g, 0, 0)), holding the running sum, which there is the group's sum.
-/
import proofs.«118230_j6622839571360_2_alg».proof.Proof.Gen.KernelIdeal.Frame
import proofs.«118230_j6622839571360_2_alg».proof.Proof.Accum
import proofs.«118230_j6622839571360_2_alg».proof.Proof.Spec
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The sum of f over group g's 32 steps. -/
def group (f : ℕ → EReal) (g : ℕ) : EReal := ∑ j : Fin 32, f (32 * g + j.val)

/-- The array of the groups' numerators: row g holds group g's sum at every position. -/
def numArr (c : Dev nD) : S2x8x128.Idx → EReal := fun i => group (Accum.stepN m c) (i 0).val

/-- The array of the groups' denominators. -/
def denArr (c : Dev nD) : S2x8x128.Idx → EReal := fun i => group (Accum.stepD m c) (i 0).val

/-- Output window 3's block index at step t: the group number, and zero on the other two axes. -/
theorem idx_facts3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- What a group's last step writes back is the group's row of the array of group sums, read through the step's block. -/
theorem flushed3_eq (c : Dev nD) (t : Fin cfg0.N) (hf : (cfg0.win 3).flush t = true) :
    (dats m 0 c).flushed 3 t = ((cfg0.win 3).blk t).view.read (Elt Ideal) (numArr m c) := by
  have h31 : t.val % 32 = 31 := (flush0_3 t).mp hf
  show (cfg0.win 3).cut (grid0.coords t) ((dats m 0 c).after 3 t) = _
  rw [after0_3]
  obtain ⟨-, -, h3⟩ := Accum.running_inv m c t.val t.isLt
  rw [(h3 h31).1]
  funext y
  obtain ⟨g, hg⟩ : ∃ g, t.val = 32 * g + 31 := ⟨t.val / 32, by omega⟩
  have e0 : ((((cfg0.win 3).blk t).view.emb y) 0).val = g := by
    show win0_3.index t (0 : Fin 3) * 1 + 1 * (y 0).val = g
    have hy : (y 0).val < 1 := (y 0).isLt
    rw [(idx_facts3 t).1]
    omega
  show MaskedCosine.running (Accum.stepN m c) t.val = group (Accum.stepN m c) ((((cfg0.win 3).blk t).view.emb y) 0).val
  rw [e0, hg, MaskedCosine.running_last]
  rfl

/-- An index of the array is in step t's block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v2_0).slice (win0_3.rect t)).set ↔ _
  rw [View.set_slice_whole, Rect.mem_set_unit]
  exact Iff.rfl

/-- Row g of the array is written by the last step of group g: the two write-backs cover the array. -/
theorem cover3 (i : S2x8x128.Idx) : ∃ t : Fin cfg0.N, (cfg0.win 3).flush t = true ∧ i ∈ ((cfg0.win 3).blk t).view.set := by
  have hN : cfg0.N = 64 := N_0
  have hN' : grid0.N = 64 := N_0
  have h0 : (i 0).val < 2 := (i 0).isLt
  have h1 : (i 1).val < 8 := (i 1).isLt
  have h2 : (i 2).val < 128 := (i 2).isLt
  refine ⟨⟨32 * (i 0).val + 31, by omega⟩, (flush0_3 _).mpr (by show (32 * (i 0).val + 31) % 32 = 31; omega), ?_⟩
  rw [mem_blk3]
  obtain ⟨e0, e1, e2⟩ := idx_facts3 ⟨32 * (i 0).val + 31, by omega⟩
  have e0' : win0_3.index ⟨32 * (i 0).val + 31, by omega⟩ (0 : Fin 3) = (i 0).val := by rw [e0]; show (32 * (i 0).val + 31) / 32 = _; omega
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 8 ≤ (i 1).val ∧ (i 1).val < win0_3.index _ (1 : Fin 3) * 8 + 8
    rw [e1]; omega
  | ⟨2, _⟩ =>
    show win0_3.index _ (2 : Fin 3) * 128 ≤ (i 2).val ∧ (i 2).val < win0_3.index _ (2 : Fin 3) * 128 + 128
    rw [e2]; omega

/-- So the array ends holding, in row g at every position, group g's sum. -/
theorem final3 (c : Dev nD) : (dats m 0 c).arrAt 3 cfg0.N = numArr m c :=
  (dats m 0 c).arrAt_eq_of_cover 3 (numArr m c) (flushed3_eq m c) cover3

/-- Output window 4's block index at step t: the group number, and zero on the other two axes. -/
theorem idx_facts4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- What a group's last step writes back is the group's row of the array of group sums, read through the step's block. -/
theorem flushed4_eq (c : Dev nD) (t : Fin cfg0.N) (hf : (cfg0.win 4).flush t = true) :
    (dats m 0 c).flushed 4 t = ((cfg0.win 4).blk t).view.read (Elt Ideal) (denArr m c) := by
  have h31 : t.val % 32 = 31 := (flush0_4 t).mp hf
  show (cfg0.win 4).cut (grid0.coords t) ((dats m 0 c).after 4 t) = _
  rw [after0_4]
  obtain ⟨-, -, h3⟩ := Accum.running_inv m c t.val t.isLt
  rw [(h3 h31).2]
  funext y
  obtain ⟨g, hg⟩ : ∃ g, t.val = 32 * g + 31 := ⟨t.val / 32, by omega⟩
  have e0 : ((((cfg0.win 4).blk t).view.emb y) 0).val = g := by
    show win0_4.index t (0 : Fin 3) * 1 + 1 * (y 0).val = g
    have hy : (y 0).val < 1 := (y 0).isLt
    rw [(idx_facts4 t).1]
    omega
  show MaskedCosine.running (Accum.stepD m c) t.val = group (Accum.stepD m c) ((((cfg0.win 4).blk t).view.emb y) 0).val
  rw [e0, hg, MaskedCosine.running_last]
  rfl

/-- An index of the array is in step t's block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v2_1).slice (win0_4.rect t)).set ↔ _
  rw [View.set_slice_whole, Rect.mem_set_unit]
  exact Iff.rfl

/-- Row g of the array is written by the last step of group g: the two write-backs cover the array. -/
theorem cover4 (i : S2x8x128.Idx) : ∃ t : Fin cfg0.N, (cfg0.win 4).flush t = true ∧ i ∈ ((cfg0.win 4).blk t).view.set := by
  have hN : cfg0.N = 64 := N_0
  have hN' : grid0.N = 64 := N_0
  have h0 : (i 0).val < 2 := (i 0).isLt
  have h1 : (i 1).val < 8 := (i 1).isLt
  have h2 : (i 2).val < 128 := (i 2).isLt
  refine ⟨⟨32 * (i 0).val + 31, by omega⟩, (flush0_4 _).mpr (by show (32 * (i 0).val + 31) % 32 = 31; omega), ?_⟩
  rw [mem_blk4]
  obtain ⟨e0, e1, e2⟩ := idx_facts4 ⟨32 * (i 0).val + 31, by omega⟩
  have e0' : win0_4.index ⟨32 * (i 0).val + 31, by omega⟩ (0 : Fin 3) = (i 0).val := by rw [e0]; show (32 * (i 0).val + 31) / 32 = _; omega
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 8 ≤ (i 1).val ∧ (i 1).val < win0_4.index _ (1 : Fin 3) * 8 + 8
    rw [e1]; omega
  | ⟨2, _⟩ =>
    show win0_4.index _ (2 : Fin 3) * 128 ≤ (i 2).val ∧ (i 2).val < win0_4.index _ (2 : Fin 3) * 128 + 128
    rw [e2]; omega

/-- So the array ends holding, in row g at every position, group g's sum. -/
theorem final4 (c : Dev nD) : (dats m 0 c).arrAt 4 cfg0.N = denArr m c :=
  (dats m 0 c).arrAt_eq_of_cover 4 (denArr m c) (flushed4_eq m c) cover4

end Cert.KernelIdeal.Arrays

end
-- ==== Proof.LibIdxSums.lean ====
/-
  Sums over the index sets of rank one and rank three, by coordinates.

  An index of a shape of rank k is the tuple of its k coordinates, so a sum over all indices is the iterated sum over
  the coordinates.  (The library's Lib/ValueIdx.lean has the rank-two case, `sum_idx2`; these are its neighbours, over
  any commutative additive monoid — the extended reals in particular, where no finiteness is needed.)
-/
import Idealize.ShloMosaic.Lib.ValueIdx

noncomputable section

open scoped BigOperators

namespace Idealize.ShloMosaic.IdxSums

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.IdxSums

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.KernelRun.lean ====
/-
  The kernel program's result, on the extended reals. After the kernel's run the two 2×8×128 arrays hold the groups'
  sums; the program then takes entry (g, 0, 0) of each row, adds the two rows' entries to zero, divides and negates.
  A step's blocks are 32 consecutive batch entries of the reshaped inputs, and the 64 steps are the 2 groups of 32,
  so the two sums are the specification's numerator and denominator of the reshaped inputs.
-/
import proofs.«118230_j6622839571360_2_alg».proof.Proof.Gen.KernelIdeal.Frame
import proofs.«118230_j6622839571360_2_alg».proof.Proof.Arrays
import proofs.«118230_j6622839571360_2_alg».proof.Proof.Accum
import proofs.«118230_j6622839571360_2_alg».proof.Proof.Spec
import proofs.«118230_j6622839571360_2_alg».proof.Proof.LibIdxSums
import proofs.«118230_j6622839571360_2_alg».proof.Proof.LibFinGroups
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.RunValue

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Arrays

variable (m : (ℓ : Loc nD τ sig) → Buf (Elt Ideal) ℓ) (ρ : Dev nD → PrngReg)

/-- The reshaped first input, as the kernel's first window finds it. -/
theorem V_v0 (c : Dev nD) : (V m c main_v0 : S2048x256x49.Idx → EReal)
    = shapeCast S2048x256x49 (m ((c : Thread nD τ).loc main_arg0)) shapeCasts_S2048x256x7x7_S2048x256x49 := by
  show StableHlo.after hostOps0 (fun b => m (c, b)) (Proc.devRef .tc main_v0) = _
  after_results
  rfl

theorem V_v1 (c : Dev nD) : (V m c main_v1 : S2048x256x49.Idx → EReal)
    = shapeCast S2048x256x49 (m ((c : Thread nD τ).loc main_arg1)) shapeCasts_S2048x256x7x7_S2048x256x49 := by
  show StableHlo.after hostOps0 (fun b => m (c, b)) (Proc.devRef .tc main_v1) = _
  after_results
  rfl

/-- The program's last lines, as a function of the two result arrays. -/
def tail (N D : S2x8x128.Idx → EReal) : S_.Idx → EReal :=
  Host.negf (F := Ideal) (Host.divf (F := Ideal)
    (Host.reduceAdd (F := Ideal) (shapeCast S2 (extractStridedSlice S2x1x1 ![0, 0, 0] N slices_S2x8x128_S2x1x1_0_0_0) shapeCasts_S2x1x1_S2)
      (constant (F := Ideal) S_ .f32 0x00000000#32) reducesTo_S2_S_d0 h_S_)
    (Host.reduceAdd (F := Ideal) (shapeCast S2 (extractStridedSlice S2x1x1 ![0, 0, 0] D slices_S2x8x128_S2x1x1_0_0_0) shapeCasts_S2x1x1_S2)
      (constant (F := Ideal) S_ .f32 0x00000000#32) reducesTo_S2_S_d0 h_S_))

theorem result_tail (c : Dev nD) :
    Pipeline.afterTail₀ cfgs (dats m) 0 (V0 m) [hostOps1] c main_v10 = tail (numArr m c) (denArr m c) := by
  unfold Pipeline.afterTail₀
  show StableHlo.after hostOps1 _ (Proc.devRef .tc main_v10) = _
  after_results
  have e3 : Pipeline.withArrays (cfgs 0).spec c (V0 m c) (fun w => (dats m 0 c).arrAt w (cfgs 0).N) (Proc.devRef .tc main_v2_0)
      = numArr m c := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v2_1)
      = denArr m c := (Pipeline.withArrays_arr spec0 launch0.win.arr_inj c _ _ 4).trans (final4 m c)
  rw [e3, e4]
  rfl

/-- One row sum of the program's last lines: entry (g, 0, 0) of each of the two rows, added to zero. -/
theorem rowsum (X : S2x8x128.Idx → EReal) (i : S_.Idx) :
    Host.reduceAdd (F := Ideal) (shapeCast S2 (extractStridedSlice S2x1x1 ![0, 0, 0] X slices_S2x8x128_S2x1x1_0_0_0) shapeCasts_S2x1x1_S2)
      (constant (F := Ideal) S_ .f32 0x00000000#32) reducesTo_S2_S_d0 h_S_ i = ∑ g : Fin 2, X (ix3 g 0 0) := by
  simp only [Host.reduceAdd, Ideal.hostReduceAdd_def]
  refine (Ideal.hostReduceAdd_total reducesTo_S2_S_d0 (fun b => b.elim0) _ _ i).trans ?_
  show Ideal.ofBits .f32 0x00000000#32 + _ = _
  rw [Ideal.ofBits_zero_f32, zero_add, IdxSums.sum_idx1]
  refine Finset.sum_congr rfl fun g _ => ?_
  refine (shapeCast_apply _ shapeCasts_S2x1x1_S2 (ix1 g) (ix3 g 0 0) ?_).trans
    (extractStridedSlice_apply ![0, 0, 0] X slices_S2x8x128_S2x1x1_0_0_0 (ix3 g 0 0) (ix3 g 0 0) fun a => ?_)
  · rw [Shape.rowMajor_val_three, Shape.rowMajor_val_one]
    show (g.val * 1 + 0) * 1 + 0 = g.val
    omega
  · match a with
    | ⟨0, _⟩ => show g.val = 0 + g.val; omega
    | ⟨1, _⟩ => rfl
    | ⟨2, _⟩ => rfl

/-- The last lines of the program: minus the quotient of the two sums over the rows. -/
theorem tail_apply (N D : S2x8x128.Idx → EReal) (i : S_.Idx) :
    tail N D i = MaskedCosine.loss (∑ g : Fin 2, N (ix3 g 0 0)) (∑ g : Fin 2, D (ix3 g 0 0)) := by
  unfold tail
  show -(Ideal.div (Host.reduceAdd (F := Ideal) _ _ reducesTo_S2_S_d0 h_S_ i) (Host.reduceAdd (F := Ideal) _ _ reducesTo_S2_S_d0 h_S_ i)) = _
  rw [rowsum, rowsum]
  rfl

/-! ## The steps' blocks are 32 consecutive batch entries of the arrays the kernel reads -/

/-- The input windows' block index at step t: t on the batch axis, zero on the other two. -/
theorem in_idx : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem lt64 (t : Fin cfg0.N) : t.val < 64 := by
  have hN : cfg0.N = 64 := N_0
  have := t.isLt
  omega

theorem iblk0_eq (c : Dev nD) (t : Fin cfg0.N) :
    (iblk m c 0 t : Vec Ideal S32x256x49 .f32) = MaskedCosine.block (V m c main_v0 : S2048x256x49.Idx → EReal) ⟨t.val, lt64 t⟩ := by
  funext y
  unfold iblk MaskedCosine.block
  rw [View.read_apply]
  show V m c main_v0 _ = V m c main_v0 _
  congr 1
  funext a
  apply Fin.ext
  obtain ⟨e0, e1, e2, -⟩ := in_idx t
  match a with
  | ⟨0, _⟩ => show win0_0.index t (0 : Fin 3) * 32 + 1 * (y 0).val = 32 * t.val + (y 0).val; rw [e0]; omega
  | ⟨1, _⟩ => show win0_0.index t (1 : Fin 3) * 256 + 1 * (y 1).val = (y 1).val; rw [e1]; omega
  | ⟨2, _⟩ => show win0_0.index t (2 : Fin 3) * 49 + 1 * (y 2).val = (y 2).val; rw [e2]; omega

theorem iblk1_eq (c : Dev nD) (t : Fin cfg0.N) :
    (iblk m c 1 t : Vec Ideal S32x256x49 .f32) = MaskedCosine.block (V m c main_v1 : S2048x256x49.Idx → EReal) ⟨t.val, lt64 t⟩ := by
  funext y
  unfold iblk MaskedCosine.block
  rw [View.read_apply]
  show V m c main_v1 _ = V m c main_v1 _
  congr 1
  funext a
  apply Fin.ext
  obtain ⟨-, -, -, e0, e1, e2, -⟩ := in_idx t
  match a with
  | ⟨0, _⟩ => show win0_1.index t (0 : Fin 3) * 32 + 1 * (y 0).val = 32 * t.val + (y 0).val; rw [e0]; omega
  | ⟨1, _⟩ => show win0_1.index t (1 : Fin 3) * 256 + 1 * (y 1).val = (y 1).val; rw [e1]; omega
  | ⟨2, _⟩ => show win0_1.index t (2 : Fin 3) * 49 + 1 * (y 2).val = (y 2).val; rw [e2]; omega

theorem iblk2_eq (c : Dev nD) (t : Fin cfg0.N) :
    (iblk m c 2 t : Vec Ideal S32x49x49 .i32) = MaskedCosine.block (V m c main_arg2 : S2048x49x49.Idx → BitVec 32) ⟨t.val, lt64 t⟩ := by
  funext y
  unfold iblk MaskedCosine.block
  rw [View.read_apply]
  show V m c main_arg2 _ = V m c main_arg2 _
  congr 1
  funext a
  apply Fin.ext
  obtain ⟨-, -, -, -, -, -, e0, e1, e2⟩ := in_idx t
  match a with
  | ⟨0, _⟩ => show win0_2.index t (0 : Fin 3) * 32 + 1 * (y 0).val = 32 * t.val + (y 0).val; rw [e0]; omega
  | ⟨1, _⟩ => show win0_2.index t (1 : Fin 3) * 49 + 1 * (y 1).val = (y 1).val; rw [e1]; omega
  | ⟨2, _⟩ => show win0_2.index t (2 : Fin 3) * 49 + 1 * (y 2).val = (y 2).val; rw [e2]; omega

/-! ## The two sums over the rows are the specification's numerator and denominator -/

theorem stepN_block (c : Dev nD) (n : Fin 64) :
    Accum.stepN m c n.val = MaskedCosine.numer (MaskedCosine.block (V m c main_v0 : S2048x256x49.Idx → EReal) n) (MaskedCosine.block (V m c main_v1 : S2048x256x49.Idx → EReal) n) (MaskedCosine.block (V m c main_arg2 : S2048x49x49.Idx → BitVec 32) n) := by
  have h : n.val < cfg0.N := by have hN : cfg0.N = 64 := N_0; have := n.isLt; omega
  refine (Accum.stepN_eq m c ⟨n.val, h⟩).trans ?_
  rw [iblk0_eq, iblk1_eq, iblk2_eq]

theorem stepD_block (c : Dev nD) (n : Fin 64) :
    Accum.stepD m c n.val = MaskedCosine.denom (MaskedCosine.block (V m c main_arg2 : S2048x49x49.Idx → BitVec 32) n) := by
  have h : n.val < cfg0.N := by have hN : cfg0.N = 64 := N_0; have := n.isLt; omega
  refine (Accum.stepD_eq m c ⟨n.val, h⟩).trans ?_
  rw [iblk2_eq]

/-- The two groups of 32 steps are the 64 blocks of the batch. -/
theorem total_num (c : Dev nD) :
    ∑ g : Fin 2, numArr m c (ix3 g 0 0) = MaskedCosine.numer (V m c main_v0 : S2048x256x49.Idx → EReal) (V m c main_v1 : S2048x256x49.Idx → EReal) (V m c main_arg2 : S2048x49x49.Idx → BitVec 32) := by
  show ∑ g : Fin 2, group (Accum.stepN m c) g.val = _
  unfold group
  rw [← Cert.Lib.FinGroups.sum_fin_groups 2 32 (Accum.stepN m c), MaskedCosine.numer_blocks]
  exact Finset.sum_congr rfl fun n _ => stepN_block m c n

theorem total_den (c : Dev nD) :
    ∑ g : Fin 2, denArr m c (ix3 g 0 0) = MaskedCosine.denom (V m c main_arg2 : S2048x49x49.Idx → BitVec 32) := by
  show ∑ g : Fin 2, group (Accum.stepD m c) g.val = _
  unfold group
  rw [← Cert.Lib.FinGroups.sum_fin_groups 2 32 (Accum.stepD m c), MaskedCosine.denom_blocks]
  exact Finset.sum_congr rfl fun n _ => stepD_block m c n

/-! ## The run -/

/-- The program's result: the specification's loss of the two reshaped inputs and the mask. -/
def result (c : Dev nD) : S_.Idx → EReal := fun _ =>
  MaskedCosine.loss
    (MaskedCosine.numer (shapeCast S2048x256x49 (m ((c : Thread nD τ).loc main_arg0)) shapeCasts_S2048x256x7x7_S2048x256x49)
      (shapeCast S2048x256x49 (m ((c : Thread nD τ).loc main_arg1)) shapeCasts_S2048x256x7x7_S2048x256x49) (m ((c : Thread nD τ).loc main_arg2)))
    (MaskedCosine.denom (m ((c : Thread nD τ).loc main_arg2)))

theorem result_eq (c : Dev nD) :
    Pipeline.afterTail₀ cfgs (dats m) 0 (V0 m) [hostOps1] c main_v10 = result m c := by
  rw [result_tail]
  funext i
  rw [tail_apply, total_num, total_den, V_v0, V_v1, V_main_arg2]
  rfl

/-- Every weakly fair execution of the program ends with its result at the specification's loss and its arguments
    unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.RunValue

end
-- ==== Proof.RefSide.lean ====
/-
  The reference program's result is the specification's loss.

  Read one operation at a time, the reference computes: the two channel norms (the square root of the sum of squares
  over the 256 channels, floored at the word nearest one millionth), the channel inner products, their quotient by the
  product of the norms, the mask's selection of that quotient or zero, the sum of the selected quotients over all
  2048 · 49 · 49 places, the number of places the mask is nonzero (a 32-bit wrapping sum of zeros and ones, which
  cannot wrap because there are fewer than 2^31 places), and minus the quotient of the two.  The two reshaped inputs
  are kept as they are: nothing here reads a reshape at an index.
-/
import proofs.«118230_j6622839571360_2_alg».proof.Proof.Gen.ReferenceIdeal.Read
import proofs.«118230_j6622839571360_2_alg».proof.Proof.Spec
import proofs.«118230_j6622839571360_2_alg».proof.Proof.LibIdxSums
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-- The floored channel norm of the first input, as the program computes it. -/
theorem norm0_eq (x0 : (⟨S2048x256x7x7, .f32⟩ : BufTy).Contents (Elt Ideal)) (b : Fin 2048) (p : Fin 49) :
    Read.val_main_v5 (F := Ideal) x0 (ix2 b p) = MaskedCosine.norm (Read.val_main_v0 (F := Ideal) x0) b p := by
  rw [Read.val_main_v5_apply, Read.val_main_v3_apply, Read.val_main_call0_v1_apply, Read.val_main_call0_cst_apply,
    Read.val_main_v4_apply, Read.val_main_cst_apply]
  simp only [Read.val_main_call0_v0_apply]
  have e : ∀ k : Fin 256, Read.idx_main_call0_v1 (ix2 b p) k = ix3 b k p := fun k =>
    funext fun a => Fin.ext (by match a with | ⟨0, _⟩ => rfl | ⟨1, _⟩ => rfl | ⟨2, _⟩ => rfl)
  simp only [e, Ideal.mulf_def, Ideal.maximumf_def, Ideal.hostUnary_sqrt_def, Ideal.ofBits_def, Ideal.ofBits_zero_f32, zero_add]
  rfl

/-- The floored channel norm of the second input. -/
theorem norm1_eq (x1 : (⟨S2048x256x7x7, .f32⟩ : BufTy).Contents (Elt Ideal)) (b : Fin 2048) (q : Fin 49) :
    Read.val_main_v8 (F := Ideal) x1 (ix2 b q) = MaskedCosine.norm (Read.val_main_v1 (F := Ideal) x1) b q := by
  rw [Read.val_main_v8_apply, Read.val_main_v6_apply, Read.val_main_call1_v1_apply, Read.val_main_call1_cst_apply,
    Read.val_main_v7_apply, Read.val_main_cst_0_apply]
  simp only [Read.val_main_call1_v0_apply]
  have e : ∀ k : Fin 256, Read.idx_main_call1_v1 (ix2 b q) k = ix3 b k q := fun k =>
    funext fun a => Fin.ext (by match a with | ⟨0, _⟩ => rfl | ⟨1, _⟩ => rfl | ⟨2, _⟩ => rfl)
  simp only [e, Ideal.mulf_def, Ideal.maximumf_def, Ideal.hostUnary_sqrt_def, Ideal.ofBits_def, Ideal.ofBits_zero_f32, zero_add]
  rfl

/-- The channel inner product of position p of the first input against position q of the second. -/
theorem dot_eq (x0 x1 : (⟨S2048x256x7x7, .f32⟩ : BufTy).Contents (Elt Ideal)) (b : Fin 2048) (p q : Fin 49) :
    Read.val_main_v2 (F := Ideal) x0 x1 (ix3 b p q)
      = ∑ k : Fin 256, Read.val_main_v0 (F := Ideal) x0 (ix3 b k p) * Read.val_main_v1 (F := Ideal) x1 (ix3 b k q) := by
  rw [Read.val_main_v2_apply]
  have el : ∀ k : Fin 256, Read.lidx_main_v2 (ix3 b p q) k = ix3 b k p := fun k =>
    funext fun a => Fin.ext (by match a with | ⟨0, _⟩ => rfl | ⟨1, _⟩ => rfl | ⟨2, _⟩ => rfl)
  have er : ∀ k : Fin 256, Read.ridx_main_v2 (ix3 b p q) k = ix3 b k q := fun k =>
    funext fun a => Fin.ext (by match a with | ⟨0, _⟩ => rfl | ⟨1, _⟩ => rfl | ⟨2, _⟩ => rfl)
  simp only [el, er]

/-- The product of the two norms, each broadcast along the other's position. -/
theorem normprod_eq (x0 x1 : (⟨S2048x256x7x7, .f32⟩ : BufTy).Contents (Elt Ideal)) (b : Fin 2048) (p q : Fin 49) :
    Read.val_main_v13 (F := Ideal) x0 x1 (ix3 b p q)
      = MaskedCosine.norm (Read.val_main_v0 (F := Ideal) x0) b p * MaskedCosine.norm (Read.val_main_v1 (F := Ideal) x1) b q := by
  rw [Read.val_main_v13_apply, Read.val_main_v11_apply, Read.val_main_v9_apply, Read.val_main_v12_apply,
    Read.val_main_v10_apply, Ideal.mulf_def]
  have e0 : Read.idx_main_v9 (Read.idx_main_v11 (ix3 b p q)) = ix2 b p :=
    funext fun a => Fin.ext (by match a with | ⟨0, _⟩ => rfl | ⟨1, _⟩ => rfl)
  have e1 : Read.idx_main_v10 (Read.idx_main_v12 (ix3 b p q)) = ix2 b q :=
    funext fun a => Fin.ext (by match a with | ⟨0, _⟩ => rfl | ⟨1, _⟩ => rfl)
  rw [e0, e1, norm0_eq, norm1_eq]

/-- One entry of the masked quotient is the specification's masked cosine. -/
theorem entry_eq (x0 x1 : (⟨S2048x256x7x7, .f32⟩ : BufTy).Contents (Elt Ideal))
    (x2 : (⟨S2048x49x49, .i32⟩ : BufTy).Contents (Elt Ideal)) (b : Fin 2048) (p q : Fin 49) :
    Read.val_main_v18 (F := Ideal) x0 x1 x2 (ix3 b p q)
      = MaskedCosine.term (Read.val_main_v0 (F := Ideal) x0) (Read.val_main_v1 (F := Ideal) x1) x2 b p q := by
  rw [Read.val_main_v18_apply, Read.val_main_v17_apply, Read.val_main_v16_apply, Read.val_main_v15_apply,
    Read.val_main_c_apply, Read.val_main_v14_apply, dot_eq, normprod_eq, Read.val_main_call2_v1_apply,
    Read.val_main_call2_v0_apply, Read.val_main_cst_1_apply, Ideal.hostDivf_def, Ideal.ofBits_def,
    Ideal.ofBits_zero_f32]
  rfl

/-! ## The count of the mask's nonzero places -/

/-- A finite sum of reals, cast to the extended reals, is the sum of the casts. -/
theorem coe_sum_ereal {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A wrapping 32-bit sum from zero is the 32-bit word of the sum of the summands' values. -/
theorem fold_addi_eq {ι : Type*} (s : Finset ι) (f : ι → BitVec 32) :
    s.fold IntOp.addi 0#32 f = BitVec.ofNat 32 (∑ i ∈ s, (f i).toNat) := by
  classical
  induction s using Finset.induction_on with
  | empty => rfl
  | insert a s ha ih =>
    rw [Finset.fold_insert ha, Finset.sum_insert ha, ih, BitVec.ofNat_add, BitVec.ofNat_toNat, BitVec.setWidth_eq]
    rfl

/-- The mask bit of a place, widened to 32 bits, as a natural number. -/
def cnt (A : S2048x49x49.Idx → BitVec 32) (j : S2048x49x49.Idx) : ℕ := ((MaskedCosine.bit (A j)).setWidth 32).toNat

/-- It is zero or one. -/
theorem cnt_le (A : S2048x49x49.Idx → BitVec 32) (j : S2048x49x49.Idx) : cnt A j ≤ 1 := by
  unfold cnt
  rw [BitVec.toNat_setWidth_of_le (by decide)]
  have := (MaskedCosine.bit (A j)).isLt
  omega

/-- There are 2048 · 49 · 49 places, so the count is below 2^31. -/
theorem cnt_sum_le (A : S2048x49x49.Idx → BitVec 32) : ∑ j : S2048x49x49.Idx, cnt A j ≤ 4917248 := by
  rw [IdxSums.sum_idx3]
  refine (Finset.sum_le_sum fun b _ => Finset.sum_le_sum fun p _ => Finset.sum_le_sum fun q _ => cnt_le A (ix3 b p q)).trans ?_
  simp

/-- The specification's unit at a place is the count there. -/
theorem unit_eq (A : S2048x49x49.Idx → BitVec 32) (b : Fin 2048) (p q : Fin 49) :
    MaskedCosine.unit A b p q = (((cnt A (ix3 b p q) : ℕ) : ℝ) : EReal) := by
  unfold MaskedCosine.unit cnt
  rw [BitVec.toInt_eq_toNat_of_lt]
  · rfl
  · rw [BitVec.toNat_setWidth_of_le (by decide)]
    have := (MaskedCosine.bit (A (ix3 b p q))).isLt
    omega

/-- The integer sum of the widened mask bits is the word of the count. -/
theorem count_word (x2 : (⟨S2048x49x49, .i32⟩ : BufTy).Contents (Elt Ideal)) (i : S_.Idx) :
    Read.val_main_v21 (F := Ideal) x2 i = BitVec.ofNat 32 (∑ j : S2048x49x49.Idx, cnt x2 j) := by
  unfold Read.val_main_v21
  rw [Host.reduce_eq_fold, Finset.filter_true_of_mem (fun j _ => funext fun a => a.elim0), Read.val_main_c_3_apply,
    fold_addi_eq]
  refine congrArg (BitVec.ofNat 32) (Finset.sum_congr rfl fun j _ => ?_)
  rw [Read.val_main_v20_apply, Read.val_main_v17_apply, Read.val_main_v16_apply, Read.val_main_v15_apply,
    Read.val_main_c_apply]
  rfl

/-- The converted count is the specification's denominator. -/
theorem denom_eq (x2 : (⟨S2048x49x49, .i32⟩ : BufTy).Contents (Elt Ideal)) (i : S_.Idx) :
    Read.val_main_v22 (F := Ideal) x2 i = MaskedCosine.denom x2 := by
  rw [Read.val_main_v22_apply, count_word]
  show ((((BitVec.ofNat 32 (∑ j : S2048x49x49.Idx, cnt x2 j)).toInt : ℤ) : ℝ) : EReal) = _
  have hN := cnt_sum_le x2
  have hmod : (BitVec.ofNat 32 (∑ j : S2048x49x49.Idx, cnt x2 j)).toNat = ∑ j : S2048x49x49.Idx, cnt x2 j := by
    rw [BitVec.toNat_ofNat]
    exact Nat.mod_eq_of_lt (by omega)
  rw [BitVec.toInt_eq_toNat_of_lt (by rw [hmod]; omega), hmod, Int.cast_natCast, IdxSums.sum_idx3]
  unfold MaskedCosine.denom
  simp only [unit_eq, Nat.cast_sum, coe_sum_ereal]

/-! ## The numerator and the result -/

/-- The sum of the masked quotients over all places is the specification's numerator. -/
theorem numer_eq (x0 x1 : (⟨S2048x256x7x7, .f32⟩ : BufTy).Contents (Elt Ideal))
    (x2 : (⟨S2048x49x49, .i32⟩ : BufTy).Contents (Elt Ideal)) (i : S_.Idx) :
    Read.val_main_v19 (F := Ideal) x0 x1 x2 i
      = MaskedCosine.numer (Read.val_main_v0 (F := Ideal) x0) (Read.val_main_v1 (F := Ideal) x1) x2 := by
  rw [Read.val_main_v19_apply, Read.val_main_cst_2_apply, Ideal.ofBits_def, Ideal.ofBits_zero_f32, zero_add,
    IdxSums.sum_idx3]
  unfold MaskedCosine.numer
  simp only [entry_eq]

/-- The reference's result is the specification's loss of the numerator and the denominator. -/
theorem result_eq (x0 x1 : (⟨S2048x256x7x7, .f32⟩ : BufTy).Contents (Elt Ideal))
    (x2 : (⟨S2048x49x49, .i32⟩ : BufTy).Contents (Elt Ideal)) (i : S_.Idx) :
    Read.val_main_v24 (F := Ideal) x0 x1 x2 i
      = MaskedCosine.loss
          (MaskedCosine.numer (Read.val_main_v0 (F := Ideal) x0) (Read.val_main_v1 (F := Ideal) x1) x2)
          (MaskedCosine.denom x2) := by
  rw [Read.val_main_v24_apply, Read.val_main_v23_apply, numer_eq, denom_eq, Ideal.hostNegf_def, Ideal.negf_def,
    Ideal.hostDivf_def]
  rfl

end Cert.ReferenceIdeal.RefValue

end
-- ==== Proof.lean ====
/-
  The kernel computes, block by block, the masked mean of pairwise cosine similarities that the reference computes
  in one pass: both are minus the quotient of the sum of the masked cosines by the number of nonzero mask entries.

  The kernel walks a 2 × 32 grid; at step 32 g + i it loads batch entries 32 (32 g + i) … 32 (32 g + i) + 31 of the two
  reshaped feature arrays and of the mask, forms the step's partial numerator and denominator, and adds them into
  two 1×1 accumulators that are reset at i = 0 and written out, spread over a 1×8×128 block, at i = 31; afterwards
  the program adds the two groups' entries, divides and negates. On the extended reals the sums over the 64 blocks
  of 32 batch entries are the sums over all 2048 entries (addition is associative and commutative there: no
  finiteness is needed), the kernel's reduced-precision product is the exact one, and the count of nonzero mask
  entries, which the reference takes as a 32-bit integer sum before converting, cannot wrap.
-/
import proofs.«118230_j6622839571360_2_alg».proof.Defs
import proofs.«118230_j6622839571360_2_alg».proof.Proof.Gen.Kernel
import proofs.«118230_j6622839571360_2_alg».proof.Proof.Gen.Kernel.Skeleton
import proofs.«118230_j6622839571360_2_alg».proof.Proof.Gen.Kernel.Launch
import proofs.«118230_j6622839571360_2_alg».proof.Proof.Gen.Kernel.Points
import proofs.«118230_j6622839571360_2_alg».proof.Proof.Gen.Kernel.Frame
import proofs.«118230_j6622839571360_2_alg».proof.Proof.Gen.KernelIdeal
import proofs.«118230_j6622839571360_2_alg».proof.Proof.Gen.KernelIdeal.Skeleton
import proofs.«118230_j6622839571360_2_alg».proof.Proof.Gen.KernelIdeal.Launch
import proofs.«118230_j6622839571360_2_alg».proof.Proof.Gen.KernelIdeal.Points
import proofs.«118230_j6622839571360_2_alg».proof.Proof.Gen.KernelIdeal.Frame
import proofs.«118230_j6622839571360_2_alg».proof.Proof.Gen.ReferenceIdeal
import proofs.«118230_j6622839571360_2_alg».proof.Proof.Gen.Pre_finite_inputs
import proofs.«118230_j6622839571360_2_alg».proof.Proof.Gen.ReferenceIdeal.Read
import proofs.«118230_j6622839571360_2_alg».proof.Proof.KernelRun
import proofs.«118230_j6622839571360_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the specification's loss of the same reshaped inputs and mask. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  funext i
  rw [Cert.ReferenceIdeal.RefValue.result_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
